-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S_ : Shape := ⟨0, ![]⟩

class Facts : Prop where
  bcast_S_S16x256x8x128 : S_.BroadcastsInDim S16x256x8x128 (![] : Fin 0 → Fin S16x256x8x128.rank)
  reducesTo_S16x256x8x128_S_d0_1_2_3 : S16x256x8x128.ReducesTo [0, 1, 2, 3] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S4096 : S_.BroadcastsInDim S4096 (![] : Fin 0 → Fin S4096.rank)
  reducesTo_S4096_S_d0 : S4096.ReducesTo [0] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S4096x128 1) : IVec S_ 1 :=
  let main_c_5 : IVec S_ 1 := constantI S_ 1 1#1
  let main_v17 : IVec S_ 1 := (fun x v => Host.reduce IntOp.andi x v reducesTo_S4096x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S16x256x8x128 .f32) (main_arg1 : FVec F S1024x4096 .f32) (main_arg2 : FVec F S4096 .f32) (main_arg3 : FVec F S4096x128 .f32) (main_arg4 : FVec F S128 .f32) : IVec S_ 1 :=
  let main_v0 : FVec F S16x256x8x128 .f32 := Host.absf main_arg0
  let main_cst : FVec F S_ .f32 := constant S_ .f32 0x7F800000#32
  let main_v1 : FVec F S16x256x8x128 .f32 := broadcastInDim S16x256x8x128 ![] bcast_S_S16x256x8x128 main_cst
  let main_v2 : IVec S16x256x8x128 1 := cmpf .olt main_v0 main_v1
  let main_c : IVec S_ 1 := constantI S_ 1 1#1
  let main_v3 : IVec S_ 1 := (fun x v => Host.reduce IntOp.andi x v reducesTo_S16x256x8x128_S_d0_1_2_3 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096x128 .f32 := Host.absf main_arg3
  let main_cst_4 : FVec F S_ .f32 := constant S_ .f32 0x7F800000#32
  let main_v15 : FVec F S4096x128 .f32 := broadcastInDim S4096x128 ![] bcast_S_S4096x128 main_cst_4
  let main_v16 : IVec S4096x128 1 := cmpf .olt main_v14 main_v15
  fn_part1 (F := F) main_arg4 main_v13 main_v16
-- ==== Kernel.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S4096x1024 : Shape := ⟨2, ![4096, 1024]⟩
abbrev S4096x8x128 : Shape := ⟨3, ![4096, 8, 128]⟩
abbrev S256x1024 : Shape := ⟨2, ![256, 1024]⟩
abbrev S256x8x128 : Shape := ⟨3, ![256, 8, 128]⟩
abbrev S256x4096 : Shape := ⟨2, ![256, 4096]⟩
abbrev S256x128 : Shape := ⟨2, ![256, 128]⟩
abbrev S128x4096 : Shape := ⟨2, ![128, 4096]⟩
abbrev S1x4096 : Shape := ⟨2, ![1, 4096]⟩
abbrev S1x128 : Shape := ⟨2, ![1, 128]⟩
abbrev S256x1x128 : Shape := ⟨3, ![256, 1, 128]⟩

abbrev nBuf : Space → Nat
  | .hbm => 10
  | .vmem => 8
  | .smem => 0
  | _ => 0

abbrev bufTy : (tb : Table) → Fin (tcTables nBuf tb) → BufTy
  | .hbm, ⟨0, _⟩ => ⟨S16x256x8x128, .f32⟩
  | .hbm, ⟨1, _⟩ => ⟨S1024x4096, .f32⟩
  | .hbm, ⟨2, _⟩ => ⟨S4096, .f32⟩
  | .hbm, ⟨3, _⟩ => ⟨S4096x128, .f32⟩
  | .hbm, ⟨4, _⟩ => ⟨S128, .f32⟩
  | .hbm, ⟨5, _⟩ => ⟨S4096x1024, .f32⟩
  | .hbm, ⟨6, _⟩ => ⟨S1024x4096, .bf16⟩
  | .hbm, ⟨7, _⟩ => ⟨S4096x128, .bf16⟩
  | .hbm, ⟨8, _⟩ => ⟨S4096x8x128, .f32⟩
  | .hbm, ⟨9, _⟩ => ⟨S16x256x8x128, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096, .f32⟩
  | .local _ .vmem, ⟨4, _⟩ => ⟨S4096x128, .bf16⟩
  | .local _ .vmem, ⟨5, _⟩ => ⟨S128, .f32⟩
  | .local _ .vmem, ⟨6, _⟩ => ⟨S256x8x128, .f32⟩
  | .local _ .vmem, ⟨7, _⟩ => ⟨S256x8x128, .f32⟩
  | _, _ => ⟨S16x256x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16x256x8x128_S4096x1024 : S16x256x8x128.ShapeCasts S4096x1024
  bitsLt_bf16_f32 : FTy.bits .bf16 < FTy.bits .f32
  inb_S4096_S4096_0 : ∀ a, (![0] : Fin 1 → Nat) a + S4096.size a ≤ S4096.size a
  h_S4096 : 0 < S4096.numel
  inb_S128_S128_0 : ∀ a, (![0] : Fin 1 → Nat) a + S128.size a ≤ S128.size a
  h_S128 : 0 < S128.numel
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S256x1024_S256x128_0_896 : ∀ a, (![0, 896] : Fin 2 → Nat) a + S256x128.size a ≤ S256x1024.size a
  h_S256x128 : 0 < S256x128.numel
  shapeCasts_S256x128_S256x128 : S256x128.ShapeCasts S256x128
  inb_S1024x4096_S128x4096_896_0 : ∀ a, (![896, 0] : Fin 2 → Nat) a + S128x4096.size a ≤ S1024x4096.size a
  h_S128x4096 : 0 < S128x4096.numel
  shapeCasts_S128x4096_S128x4096 : S128x4096.ShapeCasts S128x4096
  shapeCasts_S4096_S1x4096 : S4096.ShapeCasts S1x4096
  broadcasts_S1x4096_S256x4096 : S1x4096.Broadcasts S256x4096
  shapeCasts_S128_S1x128 : S128.ShapeCasts S1x128
  broadcasts_S1x128_S256x128 : S1x128.Broadcasts S256x128
  inb_S256x8x128_S256x1x128_0_7_0 : ∀ a, (![0, 7, 0] : Fin 3 → Nat) a + S256x1x128.size a ≤ S256x8x128.size a
  h_S256x1x128 : 0 < S256x1x128.numel
  shapeCasts_S256x1x128_S256x128 : S256x1x128.ShapeCasts S256x128
  shapeCasts_S256x128_S256x1x128 : S256x128.ShapeCasts S256x1x128
  inb_S256x1024_S256x128_0_768 : ∀ a, (![0, 768] : Fin 2 → Nat) a + S256x128.size a ≤ S256x1024.size a
  inb_S1024x4096_S128x4096_768_0 : ∀ a, (![768, 0] : Fin 2 → Nat) a + S128x4096.size a ≤ S1024x4096.size a
  inb_S256x8x128_S256x1x128_0_6_0 : ∀ a, (![0, 6, 0] : Fin 3 → Nat) a + S256x1x128.size a ≤ S256x8x128.size a
  inb_S256x1024_S256x128_0_640 : ∀ a, (![0, 640] : Fin 2 → Nat) a + S256x128.size a ≤ S256x1024.size a
  inb_S1024x4096_S128x4096_640_0 : ∀ a, (![640, 0] : Fin 2 → Nat) a + S128x4096.size a ≤ S1024x4096.size a
  inb_S256x8x128_S256x1x128_0_5_0 : ∀ a, (![0, 5, 0] : Fin 3 → Nat) a + S256x1x128.size a ≤ S256x8x128.size a
  inb_S256x1024_S256x128_0_512 : ∀ a, (![0, 512] : Fin 2 → Nat) a + S256x128.size a ≤ S256x1024.size a
  inb_S1024x4096_S128x4096_512_0 : ∀ a, (![512, 0] : Fin 2 → Nat) a + S128x4096.size a ≤ S1024x4096.size a
  inb_S256x8x128_S256x1x128_0_4_0 : ∀ a, (![0, 4, 0] : Fin 3 → Nat) a + S256x1x128.size a ≤ S256x8x128.size a
  inb_S256x1024_S256x128_0_384 : ∀ a, (![0, 384] : Fin 2 → Nat) a + S256x128.size a ≤ S256x1024.size a
  inb_S1024x4096_S128x4096_384_0 : ∀ a, (![384, 0] : Fin 2 → Nat) a + S128x4096.size a ≤ S1024x4096.size a
  inb_S256x8x128_S256x1x128_0_3_0 : ∀ a, (![0, 3, 0] : Fin 3 → Nat) a + S256x1x128.size a ≤ S256x8x128.size a
  inb_S256x1024_S256x128_0_256 : ∀ a, (![0, 256] : Fin 2 → Nat) a + S256x128.size a ≤ S256x1024.size a
  inb_S1024x4096_S128x4096_256_0 : ∀ a, (![256, 0] : Fin 2 → Nat) a + S128x4096.size a ≤ S1024x4096.size a
  inb_S256x8x128_S256x1x128_0_2_0 : ∀ a, (![0, 2, 0] : Fin 3 → Nat) a + S256x1x128.size a ≤ S256x8x128.size a
  inb_S256x1024_S256x128_0_128 : ∀ a, (![0, 128] : Fin 2 → Nat) a + S256x128.size a ≤ S256x1024.size a
  inb_S1024x4096_S128x4096_128_0 : ∀ a, (![128, 0] : Fin 2 → Nat) a + S128x4096.size a ≤ S1024x4096.size a
  inb_S256x8x128_S256x1x128_0_1_0 : ∀ a, (![0, 1, 0] : Fin 3 → Nat) a + S256x1x128.size a ≤ S256x8x128.size a
  inb_S256x1024_S256x128_0_0 : ∀ a, (![0, 0] : Fin 2 → Nat) a + S256x128.size a ≤ S256x1024.size a
  inb_S1024x4096_S128x4096_0_0 : ∀ a, (![0, 0] : Fin 2 → Nat) a + S128x4096.size a ≤ S1024x4096.size a
  inb_S256x8x128_S256x1x128_0_0_0 : ∀ a, (![0, 0, 0] : Fin 3 → Nat) a + S256x1x128.size a ≤ S256x8x128.size a
  shapeCasts_S4096x8x128_S16x256x8x128 : S4096x8x128.ShapeCasts S16x256x8x128
  dot_S256x128_S128x4096_S256x4096_1_0_0_1_n_n_wf : DotDims.WF S256x128 S128x4096 S256x4096 [1] [0] [0] [1] [] []
  dot_S256x4096_S4096x128_S256x128_1_0_0_1_n_n_wf : DotDims.WF S256x4096 S4096x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S4096x128.size a
  hwx0_3 : ∀ i : grid0.Coords, EltTy.bits .bf16 = 32 ∨ (Rect.block (s := S4096x128) S4096x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x128.size a ≤ S4096x8x128.size a
  hwx0_5 : ∀ i : grid0.Coords, EltTy.bits .f32 = 32 ∨ (Rect.block (s := S4096x8x128) S256x8x128.size (cc0_transform_5 i) (hinb0_5 i)).WholeWords (EltTy.packing .f32)

variable [Facts₀]

def dot_S256x128_S128x4096_S256x4096_1_0_0_1_n_n : DotDims S256x128 S128x4096 S256x4096 where
  lhsContracting := [1]
  rhsContracting := [0]
  lhsNonContracting := [0]
  rhsNonContracting := [1]
  lhsBatch := []
  rhsBatch := []
  wf := dot_S256x128_S128x4096_S256x4096_1_0_0_1_n_n_wf
def dot_S256x4096_S4096x128_S256x128_1_0_0_1_n_n : DotDims S256x4096 S4096x128 S256x128 where
  lhsContracting := [1]
  rhsContracting := [0]
  lhsNonContracting := [0]
  rhsNonContracting := [1]
  lhsBatch := []
  rhsBatch := []
  wf := dot_S256x4096_S4096x128_S256x128_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x8x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x256x8x128 : Shape := ⟨4, ![16, 256, 8, 128]⟩
abbrev S1024x4096 : Shape := ⟨2, ![1024, 4096]⟩
abbrev S4096 : Shape := ⟨1, ![4096]⟩
abbrev S4096x128 : Shape := ⟨2, ![4096, 128]⟩
abbrev S128 : Shape := ⟨1, ![128]⟩
abbrev S16x256x1024 : Shape := ⟨3, ![16, 256, 1024]⟩
abbrev S1024 : Shape := ⟨1, ![1024]⟩
abbrev S1x1024 : Shape := ⟨2, ![1, 1024]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S16x256x1x1024 : Shape := ⟨4, ![16, 256, 1, 1024]⟩
abbrev S1x1x8x1024 : Shape := ⟨4, ![1, 1, 8, 1024]⟩
abbrev S16x256x8x1024 : Shape := ⟨4, ![16, 256, 8, 1024]⟩
abbrev S16x256x8x4096 : Shape := ⟨4, ![16, 256, 8, 4096]⟩
abbrev S1x1x1x4096 : Shape := ⟨4, ![1, 1, 1, 4096]⟩
abbrev S1x1x1x128 : Shape := ⟨4, ![1, 1, 1, 128]⟩

abbrev nBuf : Space → Nat
  | .hbm => 47
  | .vmem => 0
  | .smem => 0
  | _ => 0

abbrev bufTy : (tb : Table) → Fin (tcTables nBuf tb) → BufTy
  | .hbm, ⟨0, _⟩ => ⟨S16x256x8x128, .f32⟩
  | .hbm, ⟨1, _⟩ => ⟨S1024x4096, .f32⟩
  | .hbm, ⟨2, _⟩ => ⟨S4096, .f32⟩
  | .hbm, ⟨3, _⟩ => ⟨S4096x128, .f32⟩
  | .hbm, ⟨4, _⟩ => ⟨S128, .f32⟩
  | .hbm, ⟨5, _⟩ => ⟨S16x256x1024, .f32⟩
  | .hbm, ⟨6, _⟩ => ⟨S1024, .i32⟩
  | .hbm, ⟨7, _⟩ => ⟨S1x1024, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x1024, .i32⟩
  | .hbm, ⟨14, _⟩ => ⟨S8x1024, .i32⟩
  | .hbm, ⟨15, _⟩ => ⟨S8x1024, .i1⟩
  | .hbm, ⟨16, _⟩ => ⟨S8x1024, .f32⟩
  | .hbm, ⟨17, _⟩ => ⟨S16x256x1x1024, .f32⟩
  | .hbm, ⟨18, _⟩ => ⟨S1x1x8x1024, .f32⟩
  | .hbm, ⟨19, _⟩ => ⟨S16x256x8x1024, .f32⟩
  | .hbm, ⟨20, _⟩ => ⟨S16x256x8x1024, .f32⟩
  | .hbm, ⟨21, _⟩ => ⟨S16x256x8x1024, .f32⟩
  | .hbm, ⟨22, _⟩ => ⟨S16x256x8x4096, .f32⟩
  | .hbm, ⟨23, _⟩ => ⟨S1x1x1x4096, .f32⟩
  | .hbm, ⟨24, _⟩ => ⟨S16x256x8x4096, .f32⟩
  | .hbm, ⟨25, _⟩ => ⟨S16x256x8x4096, .f32⟩
  | .hbm, ⟨26, _⟩ => ⟨S_, .f32⟩
  | .hbm, ⟨27, _⟩ => ⟨S16x256x8x4096, .f32⟩
  | .hbm, ⟨28, _⟩ => ⟨S16x256x8x4096, .f32⟩
  | .hbm, ⟨29, _⟩ => ⟨S_, .f32⟩
  | .hbm, ⟨30, _⟩ => ⟨S16x256x8x4096, .f32⟩
  | .hbm, ⟨31, _⟩ => ⟨S16x256x8x4096, .f32⟩
  | .hbm, ⟨32, _⟩ => ⟨S16x256x8x4096, .f32⟩
  | .hbm, ⟨33, _⟩ => ⟨S16x256x8x4096, .f32⟩
  | .hbm, ⟨34, _⟩ => ⟨S16x256x8x4096, .f32⟩
  | .hbm, ⟨35, _⟩ => ⟨S_, .f32⟩
  | .hbm, ⟨36, _⟩ => ⟨S16x256x8x4096, .f32⟩
  | .hbm, ⟨37, _⟩ => ⟨S16x256x8x4096, .f32⟩
  | .hbm, ⟨38, _⟩ => ⟨S16x256x8x4096, .f32⟩
  | .hbm, ⟨39, _⟩ => ⟨S_, .f32⟩
  | .hbm, ⟨40, _⟩ => ⟨S16x256x8x4096, .f32⟩
  | .hbm, ⟨41, _⟩ => ⟨S16x256x8x4096, .f32⟩
  | .hbm, ⟨42, _⟩ => ⟨S16x256x8x4096, .f32⟩
  | .hbm, ⟨43, _⟩ => ⟨S16x256x8x128, .f32⟩
  | .hbm, ⟨44, _⟩ => ⟨S1x1x1x128, .f32⟩
  | .hbm, ⟨45, _⟩ => ⟨S16x256x8x128, .f32⟩
  | .hbm, ⟨46, _⟩ => ⟨S16x256x8x128, .f32⟩
  | _, _ => ⟨S16x256x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_2 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S16x256x8x128_S16x256x1024 : S16x256x8x128.ShapeCasts S16x256x1024
  bcast_S1024_S1x1024_1 : S1024.BroadcastsInDim S1x1024 (![1] : Fin 1 → Fin S1x1024.rank)
  bcast_S_S8 : S_.BroadcastsInDim S8 (![] : Fin 0 → Fin S8.rank)
  bcast_S8_S8x1_0 : S8.BroadcastsInDim S8x1 (![0] : Fin 1 → Fin S8x1.rank)
  bcast_S1x1024_S8x1024_0_1 : S1x1024.BroadcastsInDim S8x1024 (![0, 1] : Fin 2 → Fin S8x1024.rank)
  bcast_S8x1_S8x1024_0_1 : S8x1.BroadcastsInDim S8x1024 (![0, 1] : Fin 2 → Fin S8x1024.rank)
  bcast_S16x256x1024_S16x256x1x1024_0_1_3 : S16x256x1024.BroadcastsInDim S16x256x1x1024 (![0, 1, 3] : Fin 3 → Fin S16x256x1x1024.rank)
  bcast_S8x1024_S1x1x8x1024_2_3 : S8x1024.BroadcastsInDim S1x1x8x1024 (![2, 3] : Fin 2 → Fin S1x1x8x1024.rank)
  bcast_S16x256x1x1024_S16x256x8x1024_0_1_2_3 : S16x256x1x1024.BroadcastsInDim S16x256x8x1024 (![0, 1, 2, 3] : Fin 4 → Fin S16x256x8x1024.rank)
  bcast_S1x1x8x1024_S16x256x8x1024_0_1_2_3 : S1x1x8x1024.BroadcastsInDim S16x256x8x1024 (![0, 1, 2, 3] : Fin 4 → Fin S16x256x8x1024.rank)
  bcast_S4096_S1x1x1x4096_3 : S4096.BroadcastsInDim S1x1x1x4096 (![3] : Fin 1 → Fin S1x1x1x4096.rank)
  bcast_S1x1x1x4096_S16x256x8x4096_0_1_2_3 : S1x1x1x4096.BroadcastsInDim S16x256x8x4096 (![0, 1, 2, 3] : Fin 4 → Fin S16x256x8x4096.rank)
  bcast_S_S16x256x8x4096 : S_.BroadcastsInDim S16x256x8x4096 (![] : Fin 0 → Fin S16x256x8x4096.rank)
  bcast_S128_S1x1x1x128_3 : S128.BroadcastsInDim S1x1x1x128 (![3] : Fin 1 → Fin S1x1x1x128.rank)
  bcast_S1x1x1x128_S16x256x8x128_0_1_2_3 : S1x1x1x128.BroadcastsInDim S16x256x8x128 (![0, 1, 2, 3] : Fin 4 → Fin S16x256x8x128.rank)
  dot_S16x256x8x1024_S1024x4096_S16x256x8x4096_3_0_012_1_n_n_wf : DotDims.WF S16x256x8x1024 S1024x4096 S16x256x8x4096 [3] [0] [0, 1, 2] [1] [] []
  dot_S16x256x8x4096_S4096x128_S16x256x8x128_3_0_012_1_n_n_wf : DotDims.WF S16x256x8x4096 S4096x128 S16x256x8x128 [3] [0] [0, 1, 2] [1] [] []

variable [Facts₀]

def dot_S16x256x8x1024_S1024x4096_S16x256x8x4096_3_0_012_1_n_n : DotDims S16x256x8x1024 S1024x4096 S16x256x8x4096 where
  lhsContracting := [3]
  rhsContracting := [0]
  lhsNonContracting := [0, 1, 2]
  rhsNonContracting := [1]
  lhsBatch := []
  rhsBatch := []
  wf := dot_S16x256x8x1024_S1024x4096_S16x256x8x4096_3_0_012_1_n_n_wf
def dot_S16x256x8x4096_S4096x128_S16x256x8x128_3_0_012_1_n_n : DotDims S16x256x8x4096 S4096x128 S16x256x8x128 where
  lhsContracting := [3]
  rhsContracting := [0]
  lhsNonContracting := [0, 1, 2]
  rhsNonContracting := [1]
  lhsBatch := []
  rhsBatch := []
  wf := dot_S16x256x8x4096_S4096x128_S16x256x8x128_3_0_012_1_n_n_wf

class Facts : Prop extends Facts₀ where

variable [Facts]
-- ==== Proof.Spec.lean ====
/-
  The mathematics of the tree MLP, stated once over the extended reals and free of either program.

  A row of the flattened embedding has 1024 features, eight chunks of 128: feature `128 j + k` is lane `k` of level `j`.
  Level `l` of a row sees only the features of the levels `j ≥ l`; its pre-activation at hidden unit `h` is the
  contraction of those features with the matching rows of the first weight matrix, plus a bias; a tanh-form GELU and a
  second full contraction plus bias follow.  Two ways of writing the level-`l` contraction meet here:
    * a contraction over ALL 1024 features of the row multiplied by a 0/1 mask (`masked_dot`), and
    * a running sum that takes in chunk 7, then 6, … down to chunk `l` (`accDown_eq`).
  Both are the sum, over the chunks `j ≥ l`, of the chunk's own 128-term contraction (`suffixDot`).  Only that
  addition of extended reals is associative and commutative, that `x * 1 = x` and that `x * 0 = 0 = 0 * x` are used:
  nothing here asks the entries to be finite.
-/
import Idealize.ShloMosaic.PureOps.Ideal
import Idealize.ShloMosaic.PureOps.Ideal.Laws
import Idealize.ShloMosaic.Lib.ValueIdx

noncomputable section

namespace Cert.TreeMlp

open Idealize.ShloMosaic Idealize.ShloMosaic.ValueIdx

/-! ## Features by level and lane -/

/-- Feature `128 j + k` of a flattened row: lane `k` of level `j`. -/
def feat (j : Fin 8) (k : Fin 128) : Fin 1024 :=
  ⟨128 * j.val + k.val, by have := j.isLt; have := k.isLt; omega⟩

@[simp] theorem feat_val (j : Fin 8) (k : Fin 128) : (feat j k).val = 128 * j.val + k.val := rfl

/-- Every feature is lane `e % 128` of level `e / 128`, and of no other pair. -/
def featEquiv : Fin 8 × Fin 128 ≃ Fin 1024 where
  toFun x := feat x.1 x.2
  invFun e := (⟨e.val / 128, by have := e.isLt; omega⟩, ⟨e.val % 128, Nat.mod_lt _ (by decide)⟩)
  left_inv x := by
    obtain ⟨j, k⟩ := x
    have hk := k.isLt
    refine Prod.ext (Fin.ext ?_) (Fin.ext ?_)
    · show (128 * j.val + k.val) / 128 = j.val
      omega
    · show (128 * j.val + k.val) % 128 = k.val
      omega
  right_inv e := by
    apply Fin.ext
    show 128 * (e.val / 128) + e.val % 128 = e.val
    omega

/-- A sum over the 1024 features is the sum over the levels of the sums over the lanes. -/
theorem sum_feat {M : Type*} [AddCommMonoid M] (f : Fin 1024 → M) :
    ∑ e : Fin 1024, f e = ∑ j : Fin 8, ∑ k : Fin 128, f (feat j k) := by
  rw [← Equiv.sum_comp featEquiv f, Fintype.sum_prod_type]
  rfl

/-! ## The suffix contraction -/

/-- The features of the levels `j ≥ l` contracted with a weight column: level `l`'s pre-activation before the bias. -/
def suffixDot (X W : Fin 1024 → EReal) (l : ℕ) : EReal :=
  ∑ j : Fin 8, if l ≤ j.val then ∑ k : Fin 128, X (feat j k) * W (feat j k) else 0

/-- Level `l`'s 0/1 mask at feature `e`: one from the first feature of level `l` on. -/
def mask (l : Fin 8) (e : Fin 1024) : EReal := if 128 * l.val ≤ e.val then 1 else 0

/-- The contraction over all 1024 features of the masked row is the contraction over the levels `j ≥ l`: under the
    mask a feature below level `l` contributes `(x * 0) * w = 0`, one from level `l` on `(x * 1) * w = x * w`. -/
theorem masked_dot (X W : Fin 1024 → EReal) (l : Fin 8) :
    ∑ e : Fin 1024, (X e * mask l e) * W e = suffixDot X W l.val := by
  rw [sum_feat]
  unfold suffixDot
  refine Finset.sum_congr rfl fun j _ => ?_
  by_cases h : l.val ≤ j.val
  · rw [if_pos h]
    refine Finset.sum_congr rfl fun k _ => ?_
    have hm : mask l (feat j k) = 1 := if_pos (by show 128 * l.val ≤ 128 * j.val + k.val; omega)
    rw [hm, mul_one]
  · rw [if_neg h]
    refine Finset.sum_eq_zero fun k _ => ?_
    have hk := k.isLt
    have hm : mask l (feat j k) = 0 := if_neg (by show ¬ 128 * l.val ≤ 128 * j.val + k.val; omega)
    rw [hm, mul_zero, zero_mul]

/-! ## The running sum from the last chunk down -/

/-- From the chunks `j ≥ l + 1` to the chunks `j ≥ l`: chunk `l` joins the sum. -/
theorem suffix_step (C : Fin 8 → EReal) (l : ℕ) (hl : l < 8) :
    (∑ j : Fin 8, if l ≤ j.val then C j else 0) = (∑ j : Fin 8, if l + 1 ≤ j.val then C j else 0) + C ⟨l, hl⟩ := by
  have hsplit : ∀ j : Fin 8, (if l ≤ j.val then C j else 0)
      = (if l + 1 ≤ j.val then C j else 0) + (if j = ⟨l, hl⟩ then C j else 0) := by
    intro j
    by_cases h1 : l + 1 ≤ j.val
    · have h0 : l ≤ j.val := by omega
      have hne : j ≠ ⟨l, hl⟩ := fun e => by
        have := congrArg Fin.val e
        simp only at this
        omega
      rw [if_pos h0, if_pos h1, if_neg hne, add_zero]
    · by_cases h2 : j.val = l
      · have he : j = ⟨l, hl⟩ := Fin.ext h2
        rw [if_pos (by omega), if_neg h1, if_pos he, zero_add]
      · have h0 : ¬ l ≤ j.val := by omega
        have hne : j ≠ ⟨l, hl⟩ := fun e => h2 (by rw [e])
        rw [if_neg h0, if_neg h1, if_neg hne, add_zero]
  rw [Finset.sum_congr rfl fun j _ => hsplit j, Finset.sum_add_distrib, Finset.sum_ite_eq' Finset.univ (⟨l, hl⟩ : Fin 8) C,
    if_pos (Finset.mem_univ _)]

/-- A running sum that starts at `z` and takes in chunk 7, then chunk 6, and so on: after `n` chunks. -/
def accDown (z : EReal) (C : Fin 8 → EReal) : ℕ → EReal
  | 0 => z
  | n + 1 => accDown z C n + (if h : 7 - n < 8 then C ⟨7 - n, h⟩ else 0)

/-- After `n ≤ 8` chunks the running sum is `z` plus the chunks `j ≥ 8 - n`, however the additions were grouped. -/
theorem accDown_eq (z : EReal) (C : Fin 8 → EReal) :
    ∀ n : ℕ, n ≤ 8 → accDown z C n = z + ∑ j : Fin 8, if 8 - n ≤ j.val then C j else 0
  | 0, _ => by
    have h0 : (∑ j : Fin 8, if 8 - 0 ≤ j.val then C j else 0) = 0 :=
      Finset.sum_eq_zero fun j _ => if_neg (by have := j.isLt; omega)
    rw [h0, add_zero]
    rfl
  | n + 1, hn => by
    have ih := accDown_eq z C n (by omega)
    have h7 : 7 - n < 8 := by omega
    show accDown z C n + (if h : 7 - n < 8 then C ⟨7 - n, h⟩ else 0) = _
    rw [dif_pos h7, ih]
    have e1 : 8 - (n + 1) = 7 - n := by omega
    have e2 : 8 - n = 7 - n + 1 := by omega
    rw [e1, e2, suffix_step C (7 - n) h7, add_assoc]

/-! ## The activation -/

/-- GELU in its tanh form, its four constants the f32 words `0.5`, `1.0`, `0.797884583` and `0.044715` both
    programs carry, multiplied and added in the order both programs do. -/
def gelu (t : EReal) : EReal :=
  (Ideal.ofBits .f32 0x3F000000#32 * t) *
    (Ideal.ofBits .f32 0x3F800000#32 +
      Ideal.tanh (Ideal.ofBits .f32 0x3F4C422A#32 * (t + ((Ideal.ofBits .f32 0x3D372713#32 * t) * t) * t)))

/-! ## The whole map, for any number of rows -/

/-- The tree MLP of `R` rows, every array given by its coordinates: entry `(r, l, q)` is the second layer's unit `q`
    over the GELU of level `l`'s pre-activations of row `r`. -/
def mlp {R : ℕ} (X : Fin R → Fin 1024 → EReal) (W1 : Fin 1024 → Fin 4096 → EReal) (b1 : Fin 4096 → EReal)
    (W2 : Fin 4096 → Fin 128 → EReal) (b2 : Fin 128 → EReal) (r : Fin R) (l : Fin 8) (q : Fin 128) : EReal :=
  (∑ h : Fin 4096, gelu (suffixDot (X r) (fun e => W1 e h) l.val + b1 h) * W2 h q) + b2 q

/-- `mlp` reads its rows only through the one row asked about: two row families (of any two lengths) that agree on that
    row, with equal weights and biases, give the same entries. -/
theorem mlp_congr {R R' : ℕ} {X : Fin R → Fin 1024 → EReal} {X' : Fin R' → Fin 1024 → EReal}
    {W1 W1' : Fin 1024 → Fin 4096 → EReal} {b1 b1' : Fin 4096 → EReal} {W2 W2' : Fin 4096 → Fin 128 → EReal}
    {b2 b2' : Fin 128 → EReal} {r : Fin R} {r' : Fin R'} (hX : X r = X' r') (h1 : W1 = W1') (h2 : b1 = b1')
    (h3 : W2 = W2') (h4 : b2 = b2') (l : Fin 8) (q : Fin 128) :
    mlp X W1 b1 W2 b2 r l q = mlp X' W1' b1' W2' b2' r' l q := by
  subst h1 h2 h3 h4
  unfold mlp
  rw [hX]

/-! ## The input's rows -/

/-- Row `256 b + p` of the flattened input is position `p` of batch member `b`. -/
def rowOf (b : Fin 16) (p : Fin 256) : Fin 4096 :=
  ⟨256 * b.val + p.val, by have := b.isLt; have := p.isLt; omega⟩

@[simp] theorem rowOf_val (b : Fin 16) (p : Fin 256) : (rowOf b p).val = 256 * b.val + p.val := rfl

/-- The input `[16, 256, 8, 128]` read as 4096 rows of 1024 features, in row-major order. -/
def flat (a : Fin 16 → Fin 256 → Fin 8 → Fin 128 → EReal) (r : Fin 4096) (e : Fin 1024) : EReal :=
  a ⟨r.val / 256, by have := r.isLt; omega⟩ ⟨r.val % 256, Nat.mod_lt _ (by decide)⟩
    ⟨e.val / 128, by have := e.isLt; omega⟩ ⟨e.val % 128, Nat.mod_lt _ (by decide)⟩

/-- Row `256 b + p` is `(b, p)`'s. -/
theorem flat_rowOf (a : Fin 16 → Fin 256 → Fin 8 → Fin 128 → EReal) (b : Fin 16) (p : Fin 256) (e : Fin 1024) :
    flat a (rowOf b p) e
      = a b p ⟨e.val / 128, by have := e.isLt; omega⟩ ⟨e.val % 128, Nat.mod_lt _ (by decide)⟩ := by
  have hp := p.isLt
  have e1 : (256 * b.val + p.val) / 256 = b.val := by omega
  have e2 : (256 * b.val + p.val) % 256 = p.val := by omega
  unfold flat
  simp only [rowOf_val, e1, e2, Fin.eta]

/-- The tree MLP of the five argument arrays, each given by its coordinates, at batch member `b`, position `p`,
    level `l`, output unit `q`. -/
def treeMlp (a : Fin 16 → Fin 256 → Fin 8 → Fin 128 → EReal) (W1 : Fin 1024 → Fin 4096 → EReal) (b1 : Fin 4096 → EReal)
    (W2 : Fin 4096 → Fin 128 → EReal) (b2 : Fin 128 → EReal) (b : Fin 16) (p : Fin 256) (l : Fin 8) (q : Fin 128) : EReal :=
  mlp (flat a) W1 b1 W2 b2 (rowOf b p) l q

/-- The same over the five argument arrays as arrays of their literal shapes: what both programs' results are stated to be. -/
def treeMlpArr (a0 : (⟨4, ![16, 256, 8, 128]⟩ : Shape).Idx → EReal) (a1 : (⟨2, ![1024, 4096]⟩ : Shape).Idx → EReal)
    (a2 : (⟨1, ![4096]⟩ : Shape).Idx → EReal) (a3 : (⟨2, ![4096, 128]⟩ : Shape).Idx → EReal)
    (a4 : (⟨1, ![128]⟩ : Shape).Idx → EReal) : (⟨4, ![16, 256, 8, 128]⟩ : Shape).Idx → EReal :=
  fun i => treeMlp (fun b p j k => a0 (ix4 b p j k)) (fun e h => a1 (ix2 e h)) (fun h => a2 (ix1 h))
    (fun h q => a3 (ix2 h q)) (fun q => a4 (ix1 q)) (i 0) (i 1) (i 2) (i 3)

end Cert.TreeMlp

end
-- ==== Proof.RefSide.lean ====
/-
  The reference's result is the tree MLP of its arguments.

  The reference masks each flattened row once per level (a 0/1 array from comparing the feature's number with
  `128 l`), contracts ALL 1024 masked features with the first weight matrix, adds the bias, applies the tanh-form GELU,
  contracts with the second weight matrix and adds its bias.  Read at an index through the generated stage lemmas,
  each stage is a function of a few elements of its operands; the one step that is not a renaming is
  `Cert.TreeMlp.masked_dot`: the masked contraction over 1024 features is the contraction over the levels `j ≥ l`.
-/
import proofs.«109808_j50285477101584_2_alg».proof.Defs
import proofs.«109808_j50285477101584_2_alg».proof.Proof.Gen.ReferenceIdeal.Read
import proofs.«109808_j50285477101584_2_alg».proof.Proof.Spec
import Idealize.ShloMosaic.Lib.ValueIdx

noncomputable section

namespace Cert.ReferenceIdeal.RefValue

open Cert.ReferenceIdeal Cert.ReferenceIdeal.Gen Cert.ReferenceIdeal.Read
open Idealize.ShloMosaic Idealize.ShloMosaic.ValueIdx Cert.TreeMlp

/-! ## The mask -/

/-- The comparison `e ≥ 128 l` on 32-bit words, for every level and feature: no product or feature number reaches the
    sign bit, so the signed comparison of the words is the comparison of the numbers. -/
theorem mask_words : ∀ (l : Fin 8) (e : Fin 1024),
    IntOp.cmpi .sge (BitVec.ofNat 32 e.val) (IntOp.muli (BitVec.ofNat 32 l.val) 128#32)
      = if 128 * l.val ≤ e.val then 1#1 else 0#1 := by
  decide +kernel

/-- The bit converted to a float is the mask's `1` or `0`. -/
theorem mask_eq (l : Fin 8) (e : Fin 1024) :
    FloatOps.uitofp (F := Ideal) .f32
        (IntOp.cmpi .sge (BitVec.ofNat 32 e.val) (IntOp.muli (BitVec.ofNat 32 l.val) 128#32)) = mask l e := by
  rw [mask_words]
  unfold mask
  split
  · show (((1#1 : BitVec 1).toNat : ℝ) : EReal) = 1
    simp
  · show (((0#1 : BitVec 1).toNat : ℝ) : EReal) = 0
    simp

/-! ## The activation -/

/-- The reference's activation stage at an index is `gelu` of its pre-activation there. -/
theorem hidden_eq (a0 : S16x256x8x128.Idx → EReal) (a1 : S1024x4096.Idx → EReal) (a2 : S4096.Idx → EReal)
    (j : S16x256x8x4096.Idx) :
    val_main_v32 (F := Ideal) a0 a1 a2 j = gelu (val_main_v19 (F := Ideal) a0 a1 a2 j) := by
  rw [val_main_v32_apply, val_main_v21_apply, val_main_v31_apply, val_main_v20_apply, val_main_cst_apply,
    val_main_v30_apply, val_main_cst_2_apply, val_main_v29_apply, val_main_v28_apply, val_main_v27_apply,
    val_main_cst_1_apply, val_main_v26_apply, val_main_v25_apply, val_main_v24_apply, val_main_v23_apply,
    val_main_v22_apply, val_main_cst_0_apply]
  rfl

/-! ## The pre-activation -/

/-- The reference's pre-activation at `(b, p, l, h)`: the contraction over all 1024 masked features of row `(b, p)` is the
    contraction over the levels `j ≥ l`, then the bias. -/
theorem pre_eq (a0 : S16x256x8x128.Idx → EReal) (a1 : S1024x4096.Idx → EReal) (a2 : S4096.Idx → EReal)
    (b : Fin 16) (p : Fin 256) (l : Fin 8) (h : Fin 4096) :
    val_main_v19 (F := Ideal) a0 a1 a2 (ix4 b p l h)
      = suffixDot (flat (fun b p l k => a0 (ix4 b p l k)) (rowOf b p)) (fun e => a1 (ix2 e h)) l.val
        + a2 (ix1 h) := by
  rw [val_main_v19_apply, val_main_v16_apply, val_main_v18_apply, val_main_v17_apply]
  show (∑ k, val_main_v15 (F := Ideal) a0 (lidx_main_v16 (ix4 b p l h) k) * a1 (ridx_main_v16 (ix4 b p l h) k))
      + a2 (idx_main_v17 (idx_main_v18 (ix4 b p l h))) = _
  have e2 : idx_main_v17 (idx_main_v18 (ix4 b p l h)) = ix1 h :=
    funext fun a => Fin.ext (by match a with | ⟨0, _⟩ => rfl)
  rw [e2, ← masked_dot _ _ l]
  congr 1
  refine Finset.sum_congr rfl fun e _ => ?_
  have er : ridx_main_v16 (ix4 b p l h) e = ix2 e h :=
    funext fun a => Fin.ext (by match a with | ⟨0, _⟩ => rfl | ⟨1, _⟩ => rfl)
  rw [er, val_main_v15_apply, val_main_v13_apply, val_main_v11_apply, val_main_v0_apply, val_main_v14_apply,
    val_main_v12_apply, val_main_v10_apply, val_main_v9_apply, val_main_v7_apply, val_main_v8_apply, val_main_v2_apply,
    val_main_v1_apply, val_main_v6_apply, val_main_v5_apply, val_main_v3_apply, val_main_v4_apply, val_main_c_apply]
  show (a0 (idx_main_v0 (idx_main_v11 (idx_main_v13 (lidx_main_v16 (ix4 b p l h) e))))
      * FloatOps.uitofp (F := Ideal) .f32 (IntOp.cmpi .sge (BitVec.ofNat 32 e.val)
          (IntOp.muli (BitVec.ofNat 32 l.val) 128#32))) * a1 (ix2 e h) = _
  have he := e.isLt
  have hb := b.isLt
  have hp := p.isLt
  have ea : idx_main_v0 (idx_main_v11 (idx_main_v13 (lidx_main_v16 (ix4 b p l h) e)))
      = ix4 b p (⟨e.val / 128, by omega⟩ : Fin 8) (⟨e.val % 128, Nat.mod_lt _ (by decide)⟩ : Fin 128) :=
    funext fun a => Fin.ext (by
      match a with
      | ⟨0, _⟩ => show ((b.val * 256 + p.val) * 1024 + e.val) / 262144 = b.val; omega
      | ⟨1, _⟩ => show ((b.val * 256 + p.val) * 1024 + e.val) / 1024 % 256 = p.val; omega
      | ⟨2, _⟩ => show ((b.val * 256 + p.val) * 1024 + e.val) / 128 % 8 = e.val / 128; omega
      | ⟨3, _⟩ => show ((b.val * 256 + p.val) * 1024 + e.val) % 128 = e.val % 128; omega)
  rw [ea, mask_eq l e, flat_rowOf]

/-! ## The result -/

/-- THE REFERENCE'S RESULT is the tree MLP of its five arguments, index by index. -/
theorem result_eq (a0 : S16x256x8x128.Idx → EReal) (a1 : S1024x4096.Idx → EReal) (a2 : S4096.Idx → EReal)
    (a3 : S4096x128.Idx → EReal) (a4 : S128.Idx → EReal) :
    val_main_v36 (F := Ideal) a0 a1 a2 a3 a4 = treeMlpArr a0 a1 a2 a3 a4 := by
  funext i
  obtain ⟨b, p, l, q, rfl⟩ : ∃ (b : Fin 16) (p : Fin 256) (l : Fin 8) (q : Fin 128), i = ix4 b p l q :=
    ⟨i 0, i 1, i 2, i 3, eq_ix4 i⟩
  rw [val_main_v36_apply, val_main_v33_apply, val_main_v35_apply, val_main_v34_apply]
  unfold treeMlpArr treeMlp mlp
  show (∑ k, val_main_v32 (F := Ideal) a0 a1 a2 (lidx_main_v33 (ix4 b p l q) k) * a3 (ridx_main_v33 (ix4 b p l q) k))
      + a4 (idx_main_v34 (idx_main_v35 (ix4 b p l q)))
    = (∑ h : Fin 4096, gelu (suffixDot (flat (fun b p j k => a0 (ix4 b p j k)) (rowOf b p)) (fun e => a1 (ix2 e h)) l.val
          + a2 (ix1 h)) * a3 (ix2 h q)) + a4 (ix1 q)
  have e4 : idx_main_v34 (idx_main_v35 (ix4 b p l q)) = ix1 q :=
    funext fun a => Fin.ext (by match a with | ⟨0, _⟩ => rfl)
  rw [e4]
  congr 1
  refine Finset.sum_congr rfl fun h _ => ?_
  have el : lidx_main_v33 (ix4 b p l q) h = ix4 b p l h :=
    funext fun a => Fin.ext (by match a with | ⟨0, _⟩ => rfl | ⟨1, _⟩ => rfl | ⟨2, _⟩ => rfl | ⟨3, _⟩ => rfl)
  have er : ridx_main_v33 (ix4 b p l q) h = ix2 h q :=
    funext fun a => Fin.ext (by match a with | ⟨0, _⟩ => rfl | ⟨1, _⟩ => rfl)
  rw [el, er, hidden_eq, pre_eq]

end Cert.ReferenceIdeal.RefValue

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibBlockReads.lean ====
/-
  Two layout steps read at an index written by coordinates, for any extents.

  * A matrix `[a, b]` cast to `[a, 1, b]` (a unit axis put BETWEEN its two axes) reads, at `(i, u, j)`, the matrix at
    `(i, j)`: both have row-major position `i * b + j`.
  * A load through a unit-stride rectangle of a matrix, at the rectangle's own index `(y₀, y₁)`, reads the matrix at
    `(off₀ + y₀, off₁ + y₁)`.
-/
import Idealize.ShloMosaic.Lib.ValueIdx
import Idealize.ShloMosaic.Lib.Pipeline.Value

noncomputable section

namespace Cert.LibBlockReads

open Idealize.ShloMosaic Idealize.ShloMosaic.ValueIdx

/-- An `[a, b]` array cast to `[a, 1, b]` reads, at `(i, u, j)`, the operand at `(i, j)`, whatever the unit coordinate. -/
theorem shapeCast_ab_a1b_apply {α : Type} {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A load through a unit-stride rectangle of an `[n0, n1]` array reads, at the rectangle's index `y`, the array at the
    offsets plus `y`: the caller names the two coordinates and shows each is its offset plus `y`'s. -/
theorem ld_unit_ix2 {Val : EltTy → Type} {e : EltTy} {n0 n1 : ℕ} (X : (⟨2, ![n0, n1]⟩ : Shape).Idx → Val e)
    (off size : Fin 2 → ℕ) (inb : ∀ a, off a + size a ≤ (⟨2, ![n0, n1]⟩ : Shape).size a)
    (y : (Rect.unit (s := ⟨2, ![n0, n1]⟩) off size inb).shape.Idx) (i : Fin n0) (j : Fin n1)
    (hi : i.val = off 0 + (y 0).val) (hj : j.val = off 1 + (y 1).val) :
    View.ld X (Rect.unit off size inb) y = X (ix2 i j) :=
  congrArg X (funext fun a => Fin.ext (by
    match a with
    | ⟨0, _⟩ => show off 0 + 1 * (y 0).val = i.val; omega
    | ⟨1, _⟩ => show off 1 + 1 * (y 1).val = j.val; omega))

end Cert.LibBlockReads

end
-- ==== Proof.KernelBlock.lean ====
/-
  What one grid point of the kernel leaves in its output block, as the tree MLP of the point's input blocks.

  A point holds 256 flattened rows `x` (a [256, 1024] block), both weight matrices and both biases whole.  The body
  keeps one [256, 4096] accumulator.  It starts at zero; for the levels 7, 6, …, 0 in that order it adds the product of
  the rows' chunk `[128 l, 128 l + 128)` with the same 128 rows of the first weight matrix, and right after adding
  chunk `l` it forms level `l`'s output from the accumulator as it then stands: bias, tanh-form GELU, product with the
  second weight matrix, bias — stored as row `l` of the [256, 8, 128] output block.  So the block is eight stored
  pieces, and piece `l` depends on the accumulator after the chunks 7, …, `l`: at `(p, h)` the sum over the levels
  `j ≥ l` of the chunk contractions, which is `Cert.TreeMlp.suffixDot` (`accDown_eq`).  Narrowing to bf16 is the
  identity at the ideal values.
-/
import proofs.«109808_j50285477101584_2_alg».proof.Proof.Gen.KernelIdeal.Frame
import proofs.«109808_j50285477101584_2_alg».proof.Proof.Spec
import proofs.«109808_j50285477101584_2_alg».proof.Proof.LibMatmul
import proofs.«109808_j50285477101584_2_alg».proof.Proof.LibBlockReads
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Block

open Cert.KernelIdeal Cert.KernelIdeal.Gen
open Idealize.ShloMosaic Idealize.ShloMosaic.ValueIdx Cert.TreeMlp Cert.LibMatmul

/-! ## The body's steps as whole-vector functions -/

section AnyInstance
variable {F : FTy → Type} [FloatOps F]

/-- The accumulator before any chunk: zero everywhere. -/
def accZero : FVec F S256x4096 .f32 := broadcast S256x4096 (Scalar.ofBits .f32 0x00000000#32)

/-- One chunk taken in: the rows' chunk (narrowed to bf16) times the weight chunk, added to the accumulator. -/
def accStep (acc : FVec F S256x4096 .f32) (xc : Vec F S256x128 .f32) (wc : Vec F S128x4096 .bf16) :
    FVec F S256x4096 .f32 :=
  addf acc (matmul dot_S256x128_S128x4096_S256x4096_1_0_0_1_n_n none
    (truncf .bf16 (shapeCast S256x128 xc shapeCasts_S256x128_S256x128 : FVec F S256x128 .f32) bitsLt_bf16_f32)
    (shapeCast S128x4096 wc shapeCasts_S128x4096_S128x4096 : FVec F S128x4096 .bf16)
    (constant S256x4096 .f32 0x00000000#32))

/-- The pre-activation: the accumulator plus the first bias, the same in every row. -/
def preAct (b1 : Vec F S4096 .f32) (acc : FVec F S256x4096 .f32) : FVec F S256x4096 .f32 :=
  addf acc (broadcastTo S256x4096 (shapeCast S1x4096 b1 shapeCasts_S4096_S1x4096 : FVec F S1x4096 .f32)
    broadcasts_S1x4096_S256x4096)

/-- The tanh-form GELU of a [256, 4096] array, narrowed to bf16 for the second product. -/
def act (t : FVec F S256x4096 .f32) : FVec F S256x4096 .bf16 :=
  truncf .bf16
    (mulf (mulf (broadcast S256x4096 (Scalar.ofBits .f32 0x3F000000#32)) t)
      (addf (broadcast S256x4096 (Scalar.ofBits .f32 0x3F800000#32))
        (tanh (mulf (broadcast S256x4096 (Scalar.ofBits .f32 0x3F4C422A#32))
          (addf t (mulf (mulf (mulf (broadcast S256x4096 (Scalar.ofBits .f32 0x3D372713#32)) t) t) t))))))
    bitsLt_bf16_f32

/-- One level's output piece from its hidden activations: times the second weight matrix, plus the second bias in every
    row, as a [256, 1, 128] slab. -/
def outPiece (b2 : Vec F S128 .f32) (w2 : FVec F S4096x128 .bf16) (hid : FVec F S256x4096 .bf16) :
    FVec F S256x1x128 .f32 :=
  shapeCast S256x1x128
    (addf (matmul dot_S256x4096_S4096x128_S256x128_1_0_0_1_n_n none hid w2 (constant S256x128 .f32 0x00000000#32))
      (broadcastTo S256x128 (shapeCast S1x128 b2 shapeCasts_S128_S1x128 : FVec F S1x128 .f32)
        broadcasts_S1x128_S256x128) : FVec F S256x128 .f32)
    shapeCasts_S256x128_S256x1x128

/-- A level's stored piece from the accumulator as it stands when the level is formed. -/
def levelPiece (b1 : Vec F S4096 .f32) (b2 : Vec F S128 .f32) (w2 : Vec F S4096x128 .bf16)
    (acc : FVec F S256x4096 .f32) : FVec F S256x1x128 .f32 :=
  outPiece b2 (shapeCast S4096x128 w2 shapeCasts_S4096x128_S4096x128 : FVec F S4096x128 .bf16) (act (preAct b1 acc))

variable (x0 : Vec F S256x1024 .f32) (x1 : Vec F S1024x4096 .bf16)

/-- The accumulator after the chunks 7, …, `l`, chunk by chunk as the body loads them. -/
def acc7 : FVec F S256x4096 .f32 := accStep accZero (View.ld x0 r0_3) (View.ld x1 r0_4)
def acc6 : FVec F S256x4096 .f32 := accStep (acc7 x0 x1) (View.ld x0 r0_6) (View.ld x1 r0_7)
def acc5 : FVec F S256x4096 .f32 := accStep (acc6 x0 x1) (View.ld x0 r0_9) (View.ld x1 r0_10)
def acc4 : FVec F S256x4096 .f32 := accStep (acc5 x0 x1) (View.ld x0 r0_12) (View.ld x1 r0_13)
def acc3 : FVec F S256x4096 .f32 := accStep (acc4 x0 x1) (View.ld x0 r0_15) (View.ld x1 r0_16)
def acc2 : FVec F S256x4096 .f32 := accStep (acc3 x0 x1) (View.ld x0 r0_18) (View.ld x1 r0_19)
def acc1 : FVec F S256x4096 .f32 := accStep (acc2 x0 x1) (View.ld x0 r0_21) (View.ld x1 r0_22)
def acc0 : FVec F S256x4096 .f32 := accStep (acc1 x0 x1) (View.ld x0 r0_24) (View.ld x1 r0_25)

/-- The output block is the eight level pieces, level `l` at row `l`: the generated term, with the body's steps named. -/
theorem out0_5_eq (x2 : Vec F S4096 .f32) (x3 : Vec F S4096x128 .bf16) (x4 : Vec F S128 .f32) :
    out0_5 x0 x1 x2 x3 x4 = View.canon
      [⟨r0_26, levelPiece (View.ld x2 r0_0) (View.ld x4 r0_1) (View.ld x3 r0_2) (acc0 x0 x1)⟩,
       ⟨r0_23, levelPiece (View.ld x2 r0_0) (View.ld x4 r0_1) (View.ld x3 r0_2) (acc1 x0 x1)⟩,
       ⟨r0_20, levelPiece (View.ld x2 r0_0) (View.ld x4 r0_1) (View.ld x3 r0_2) (acc2 x0 x1)⟩,
       ⟨r0_17, levelPiece (View.ld x2 r0_0) (View.ld x4 r0_1) (View.ld x3 r0_2) (acc3 x0 x1)⟩,
       ⟨r0_14, levelPiece (View.ld x2 r0_0) (View.ld x4 r0_1) (View.ld x3 r0_2) (acc4 x0 x1)⟩,
       ⟨r0_11, levelPiece (View.ld x2 r0_0) (View.ld x4 r0_1) (View.ld x3 r0_2) (acc5 x0 x1)⟩,
       ⟨r0_8, levelPiece (View.ld x2 r0_0) (View.ld x4 r0_1) (View.ld x3 r0_2) (acc6 x0 x1)⟩,
       ⟨r0_5, levelPiece (View.ld x2 r0_0) (View.ld x4 r0_1) (View.ld x3 r0_2) (acc7 x0 x1)⟩] := rfl

end AnyInstance

/-! ## The steps read at an index, at the ideal values -/

section AtIdeal

open Cert.LibBlockReads

theorem accZero_apply (j : S256x4096.Idx) : (accZero : FVec Ideal S256x4096 .f32) j = 0 :=
  Ideal.ofBits_zero_f32

/-- A chunk taken in, at `(p, h)`: the accumulator there plus the 128-term contraction of the two chunks. -/
theorem accStep_apply (acc : FVec Ideal S256x4096 .f32) (xc : Vec Ideal S256x128 .f32) (wc : Vec Ideal S128x4096 .bf16)
    (p : Fin 256) (h : Fin 4096) :
    accStep acc xc wc (ix2 p h) = acc (ix2 p h) + ∑ k : Fin 128, xc (ix2 p k) * wc (ix2 k h) := by
  unfold accStep
  rw [addf_apply]
  congr 1
  refine (congrFun (matmul_zero_eq dot_S256x128_S128x4096_S256x4096_1_0_0_1_n_n rfl rfl rfl rfl rfl rfl none
    (truncf .bf16 (shapeCast S256x128 xc shapeCasts_S256x128_S256x128 : FVec Ideal S256x128 .f32) bitsLt_bf16_f32)
    (shapeCast S128x4096 wc shapeCasts_S128x4096_S128x4096 : FVec Ideal S128x4096 .bf16)) (ix2 p h)).trans ?_
  rw [MM_apply]
  refine Finset.sum_congr rfl fun k _ => ?_
  rw [truncf_apply, shapeCast_self, shapeCast_self]

/-- The pre-activation at `(p, h)`: the accumulator there plus the bias of hidden unit `h`. -/
theorem preAct_apply (b1 : Vec Ideal S4096 .f32) (acc : FVec Ideal S256x4096 .f32) (p : Fin 256) (h : Fin 4096) :
    preAct b1 acc (ix2 p h) = acc (ix2 p h) + b1 (ix1 h) := by
  unfold preAct
  rw [addf_apply, broadcastTo_1b_ab_apply, shapeCast_a_1a_apply]

/-- The activation is `gelu`, entry by entry (narrowing to bf16 changes nothing at the ideal values). -/
theorem act_apply (t : FVec Ideal S256x4096 .f32) (j : S256x4096.Idx) : act t j = gelu (t j) := rfl

/-- A level's output piece at `(p, ·, q)`: the hidden row `p` against column `q` of the second weight matrix, plus the
    bias of output unit `q`. -/
theorem outPiece_apply (b2 : Vec Ideal S128 .f32) (w2 : FVec Ideal S4096x128 .bf16) (hid : FVec Ideal S256x4096 .bf16)
    (p : Fin 256) (u : Fin 1) (q : Fin 128) :
    outPiece b2 w2 hid (ix3 p u q) = (∑ h : Fin 4096, hid (ix2 p h) * w2 (ix2 h q)) + b2 (ix1 q) := by
  unfold outPiece
  rw [shapeCast_ab_a1b_apply, addf_apply, broadcastTo_1b_ab_apply, shapeCast_a_1a_apply]
  congr 1
  refine (congrFun (matmul_zero_eq dot_S256x4096_S4096x128_S256x128_1_0_0_1_n_n rfl rfl rfl rfl rfl rfl none
    hid w2) (ix2 p q)).trans ?_
  rw [MM_apply]

/-- A level's stored piece at `(p, ·, q)` from the accumulator it was formed from. -/
theorem levelPiece_apply (b1 : Vec Ideal S4096 .f32) (b2 : Vec Ideal S128 .f32) (w2 : Vec Ideal S4096x128 .bf16)
    (acc : FVec Ideal S256x4096 .f32) (p : Fin 256) (u : Fin 1) (q : Fin 128) :
    levelPiece b1 b2 w2 acc (ix3 p u q)
      = (∑ h : Fin 4096, gelu (acc (ix2 p h) + b1 (ix1 h)) * w2 (ix2 h q)) + b2 (ix1 q) := by
  unfold levelPiece
  rw [outPiece_apply]
  congr 1
  refine Finset.sum_congr rfl fun h _ => ?_
  rw [act_apply, preAct_apply, shapeCast_self]

/-! ## The accumulator after each chunk -/

variable (x0 : Vec Ideal S256x1024 .f32) (x1 : Vec Ideal S1024x4096 .bf16)

/-- Chunk `j`'s contraction at `(p, h)`: the 128 features of level `j` of row `p` against the matching weight rows. -/
def chunkDot (p : Fin 256) (h : Fin 4096) (j : Fin 8) : EReal :=
  ∑ k : Fin 128, x0 (ix2 p (feat j k)) * x1 (ix2 (feat j k) h)

/-- Chunk 7 joins: features `[896, 1024)` of the rows against rows `[896, 1024)` of the first weight matrix. -/
theorem acc7_step (p : Fin 256) (h : Fin 4096) :
    acc7 x0 x1 (ix2 p h) = (accZero : FVec Ideal S256x4096 .f32) (ix2 p h) + chunkDot x0 x1 p h 7 := by
  unfold acc7
  rw [accStep_apply]
  congr 1
  refine Finset.sum_congr rfl fun k _ => ?_
  rw [ld_unit_ix2 x0 ![0, 896] S256x128.size inb_S256x1024_S256x128_0_896 (ix2 p k) p (feat 7 k)
      (by show p.val = 0 + p.val; omega) (by show 128 * 7 + k.val = 896 + k.val; omega),
    ld_unit_ix2 x1 ![896, 0] S128x4096.size inb_S1024x4096_S128x4096_896_0 (ix2 k h) (feat 7 k) h
      (by show 128 * 7 + k.val = 896 + k.val; omega) (by show h.val = 0 + h.val; omega)]

/-- Chunk 6 joins: features `[768, 896)` of the rows against rows `[768, 896)` of the first weight matrix. -/
theorem acc6_step (p : Fin 256) (h : Fin 4096) :
    acc6 x0 x1 (ix2 p h) = (acc7 x0 x1 : FVec Ideal S256x4096 .f32) (ix2 p h) + chunkDot x0 x1 p h 6 := by
  unfold acc6
  rw [accStep_apply]
  congr 1
  refine Finset.sum_congr rfl fun k _ => ?_
  rw [ld_unit_ix2 x0 ![0, 768] S256x128.size inb_S256x1024_S256x128_0_768 (ix2 p k) p (feat 6 k)
      (by show p.val = 0 + p.val; omega) (by show 128 * 6 + k.val = 768 + k.val; omega),
    ld_unit_ix2 x1 ![768, 0] S128x4096.size inb_S1024x4096_S128x4096_768_0 (ix2 k h) (feat 6 k) h
      (by show 128 * 6 + k.val = 768 + k.val; omega) (by show h.val = 0 + h.val; omega)]

/-- Chunk 5 joins: features `[640, 768)` of the rows against rows `[640, 768)` of the first weight matrix. -/
theorem acc5_step (p : Fin 256) (h : Fin 4096) :
    acc5 x0 x1 (ix2 p h) = (acc6 x0 x1 : FVec Ideal S256x4096 .f32) (ix2 p h) + chunkDot x0 x1 p h 5 := by
  unfold acc5
  rw [accStep_apply]
  congr 1
  refine Finset.sum_congr rfl fun k _ => ?_
  rw [ld_unit_ix2 x0 ![0, 640] S256x128.size inb_S256x1024_S256x128_0_640 (ix2 p k) p (feat 5 k)
      (by show p.val = 0 + p.val; omega) (by show 128 * 5 + k.val = 640 + k.val; omega),
    ld_unit_ix2 x1 ![640, 0] S128x4096.size inb_S1024x4096_S128x4096_640_0 (ix2 k h) (feat 5 k) h
      (by show 128 * 5 + k.val = 640 + k.val; omega) (by show h.val = 0 + h.val; omega)]

/-- Chunk 4 joins: features `[512, 640)` of the rows against rows `[512, 640)` of the first weight matrix. -/
theorem acc4_step (p : Fin 256) (h : Fin 4096) :
    acc4 x0 x1 (ix2 p h) = (acc5 x0 x1 : FVec Ideal S256x4096 .f32) (ix2 p h) + chunkDot x0 x1 p h 4 := by
  unfold acc4
  rw [accStep_apply]
  congr 1
  refine Finset.sum_congr rfl fun k _ => ?_
  rw [ld_unit_ix2 x0 ![0, 512] S256x128.size inb_S256x1024_S256x128_0_512 (ix2 p k) p (feat 4 k)
      (by show p.val = 0 + p.val; omega) (by show 128 * 4 + k.val = 512 + k.val; omega),
    ld_unit_ix2 x1 ![512, 0] S128x4096.size inb_S1024x4096_S128x4096_512_0 (ix2 k h) (feat 4 k) h
      (by show 128 * 4 + k.val = 512 + k.val; omega) (by show h.val = 0 + h.val; omega)]

/-- Chunk 3 joins: features `[384, 512)` of the rows against rows `[384, 512)` of the first weight matrix. -/
theorem acc3_step (p : Fin 256) (h : Fin 4096) :
    acc3 x0 x1 (ix2 p h) = (acc4 x0 x1 : FVec Ideal S256x4096 .f32) (ix2 p h) + chunkDot x0 x1 p h 3 := by
  unfold acc3
  rw [accStep_apply]
  congr 1
  refine Finset.sum_congr rfl fun k _ => ?_
  rw [ld_unit_ix2 x0 ![0, 384] S256x128.size inb_S256x1024_S256x128_0_384 (ix2 p k) p (feat 3 k)
      (by show p.val = 0 + p.val; omega) (by show 128 * 3 + k.val = 384 + k.val; omega),
    ld_unit_ix2 x1 ![384, 0] S128x4096.size inb_S1024x4096_S128x4096_384_0 (ix2 k h) (feat 3 k) h
      (by show 128 * 3 + k.val = 384 + k.val; omega) (by show h.val = 0 + h.val; omega)]

/-- Chunk 2 joins: features `[256, 384)` of the rows against rows `[256, 384)` of the first weight matrix. -/
theorem acc2_step (p : Fin 256) (h : Fin 4096) :
    acc2 x0 x1 (ix2 p h) = (acc3 x0 x1 : FVec Ideal S256x4096 .f32) (ix2 p h) + chunkDot x0 x1 p h 2 := by
  unfold acc2
  rw [accStep_apply]
  congr 1
  refine Finset.sum_congr rfl fun k _ => ?_
  rw [ld_unit_ix2 x0 ![0, 256] S256x128.size inb_S256x1024_S256x128_0_256 (ix2 p k) p (feat 2 k)
      (by show p.val = 0 + p.val; omega) (by show 128 * 2 + k.val = 256 + k.val; omega),
    ld_unit_ix2 x1 ![256, 0] S128x4096.size inb_S1024x4096_S128x4096_256_0 (ix2 k h) (feat 2 k) h
      (by show 128 * 2 + k.val = 256 + k.val; omega) (by show h.val = 0 + h.val; omega)]

/-- Chunk 1 joins: features `[128, 256)` of the rows against rows `[128, 256)` of the first weight matrix. -/
theorem acc1_step (p : Fin 256) (h : Fin 4096) :
    acc1 x0 x1 (ix2 p h) = (acc2 x0 x1 : FVec Ideal S256x4096 .f32) (ix2 p h) + chunkDot x0 x1 p h 1 := by
  unfold acc1
  rw [accStep_apply]
  congr 1
  refine Finset.sum_congr rfl fun k _ => ?_
  rw [ld_unit_ix2 x0 ![0, 128] S256x128.size inb_S256x1024_S256x128_0_128 (ix2 p k) p (feat 1 k)
      (by show p.val = 0 + p.val; omega) (by show 128 * 1 + k.val = 128 + k.val; omega),
    ld_unit_ix2 x1 ![128, 0] S128x4096.size inb_S1024x4096_S128x4096_128_0 (ix2 k h) (feat 1 k) h
      (by show 128 * 1 + k.val = 128 + k.val; omega) (by show h.val = 0 + h.val; omega)]

/-- Chunk 0 joins: features `[0, 128)` of the rows against rows `[0, 128)` of the first weight matrix. -/
theorem acc0_step (p : Fin 256) (h : Fin 4096) :
    acc0 x0 x1 (ix2 p h) = (acc1 x0 x1 : FVec Ideal S256x4096 .f32) (ix2 p h) + chunkDot x0 x1 p h 0 := by
  unfold acc0
  rw [accStep_apply]
  congr 1
  refine Finset.sum_congr rfl fun k _ => ?_
  rw [ld_unit_ix2 x0 ![0, 0] S256x128.size inb_S256x1024_S256x128_0_0 (ix2 p k) p (feat 0 k)
      (by show p.val = 0 + p.val; omega) (by show 128 * 0 + k.val = 0 + k.val; omega),
    ld_unit_ix2 x1 ![0, 0] S128x4096.size inb_S1024x4096_S128x4096_0_0 (ix2 k h) (feat 0 k) h
      (by show 128 * 0 + k.val = 0 + k.val; omega) (by show h.val = 0 + h.val; omega)]

/-- So each accumulator is the running sum from chunk 7 down, after as many chunks as were taken in. -/
theorem acc7_down (p : Fin 256) (h : Fin 4096) :
    acc7 x0 x1 (ix2 p h) = accDown 0 (chunkDot x0 x1 p h) 1 := by
  rw [acc7_step, accZero_apply]
  rfl

theorem acc6_down (p : Fin 256) (h : Fin 4096) :
    acc6 x0 x1 (ix2 p h) = accDown 0 (chunkDot x0 x1 p h) 2 := by
  rw [acc6_step, acc7_down]
  rfl

theorem acc5_down (p : Fin 256) (h : Fin 4096) :
    acc5 x0 x1 (ix2 p h) = accDown 0 (chunkDot x0 x1 p h) 3 := by
  rw [acc5_step, acc6_down]
  rfl

theorem acc4_down (p : Fin 256) (h : Fin 4096) :
    acc4 x0 x1 (ix2 p h) = accDown 0 (chunkDot x0 x1 p h) 4 := by
  rw [acc4_step, acc5_down]
  rfl

theorem acc3_down (p : Fin 256) (h : Fin 4096) :
    acc3 x0 x1 (ix2 p h) = accDown 0 (chunkDot x0 x1 p h) 5 := by
  rw [acc3_step, acc4_down]
  rfl

theorem acc2_down (p : Fin 256) (h : Fin 4096) :
    acc2 x0 x1 (ix2 p h) = accDown 0 (chunkDot x0 x1 p h) 6 := by
  rw [acc2_step, acc3_down]
  rfl

theorem acc1_down (p : Fin 256) (h : Fin 4096) :
    acc1 x0 x1 (ix2 p h) = accDown 0 (chunkDot x0 x1 p h) 7 := by
  rw [acc1_step, acc2_down]
  rfl

theorem acc0_down (p : Fin 256) (h : Fin 4096) :
    acc0 x0 x1 (ix2 p h) = accDown 0 (chunkDot x0 x1 p h) 8 := by
  rw [acc0_step, acc1_down]
  rfl

/-- The running sum after `n` chunks is the contraction over the levels `j ≥ 8 - n`. -/
theorem down_suffix (p : Fin 256) (h : Fin 4096) (n : ℕ) (hn : n ≤ 8) :
    accDown 0 (chunkDot x0 x1 p h) n
      = suffixDot (fun e => x0 (ix2 p e)) (fun e => x1 (ix2 e h)) (8 - n) := by
  rw [accDown_eq _ _ n hn, zero_add]
  rfl

/-! ## The block -/

variable (x2 : Vec Ideal S4096 .f32) (x3 : Vec Ideal S4096x128 .bf16) (x4 : Vec Ideal S128 .f32)

/-- The tree MLP of the point's 256 rows, as a function of the block index `(p, l, q)`. -/
def blockMlp : S256x8x128.Idx → EReal := fun y =>
  mlp (fun r e => x0 (ix2 r e)) (fun e h => x1 (ix2 e h)) (fun h => x2 (ix1 h)) (fun h q => x3 (ix2 h q))
    (fun q => x4 (ix1 q)) (y 0) (y 1) (y 2)

theorem hz1 : (![0] : Fin 1 → Nat) = fun _ => 0 := funext fun a => by fin_cases a; rfl
theorem hz2 : (![0, 0] : Fin 2 → Nat) = fun _ => 0 := funext fun a => by fin_cases a <;> rfl

/-- A level's piece, stored at row `l` of the block, agrees there with the tree MLP of the rows — given that its
    accumulator is the contraction over the levels `j ≥ l`. -/
theorem piece_ok (acc : FVec Ideal S256x4096 .f32) (l : Fin 8)
    (inb : ∀ a, (![0, l.val, 0] : Fin 3 → ℕ) a + S256x1x128.size a ≤ S256x8x128.size a)
    (hacc : ∀ (p : Fin 256) (h : Fin 4096),
      acc (ix2 p h) = suffixDot (fun e => x0 (ix2 p e)) (fun e => x1 (ix2 e h)) l.val)
    (x : S256x1x128.Idx) :
    levelPiece (View.ld x2 r0_0) (View.ld x4 r0_1) (View.ld x3 r0_2) acc x
      = blockMlp x0 x1 x2 x3 x4 ((Rect.unit (s := S256x8x128) ![0, l.val, 0] S256x1x128.size inb).emb x) := by
  obtain ⟨p, u, q, rfl⟩ : ∃ (p : Fin 256) (u : Fin 1) (q : Fin 128), x = ix3 p u q := ⟨x 0, x 1, x 2, eq_ix3 x⟩
  have he : (Rect.unit (s := S256x8x128) ![0, l.val, 0] S256x1x128.size inb).emb (ix3 p u q) = ix3 p l q :=
    funext fun a => Fin.ext (by
      match a with
      | ⟨0, _⟩ => show 0 + 1 * p.val = p.val; omega
      | ⟨1, _⟩ => show l.val + 1 * u.val = l.val; omega
      | ⟨2, _⟩ => show 0 + 1 * q.val = q.val; omega)
  rw [he, levelPiece_apply]
  unfold blockMlp mlp
  show _ = (∑ h : Fin 4096, gelu (suffixDot (fun e => x0 (ix2 p e)) (fun e => x1 (ix2 e h)) l.val + x2 (ix1 h))
      * x3 (ix2 h q)) + x4 (ix1 q)
  rw [View.ld_unit_zero (S := S4096) hz1, View.ld_unit_zero (S := S128) hz1, View.ld_unit_zero (S := S4096x128) hz2]
  congr 1
  refine Finset.sum_congr rfl fun h _ => ?_
  rw [hacc p h]

/-- WHAT A POINT LEAVES IN ITS OUTPUT BLOCK is the tree MLP of its 256 rows: entry `(p, l, q)` of the block is level
    `l`'s output unit `q` for row `p`. -/
theorem block_eq (p : Fin 256) (l : Fin 8) (q : Fin 128) :
    out0_5 (F := Ideal) x0 x1 x2 x3 x4 (ix3 p l q)
      = mlp (fun r e => x0 (ix2 r e)) (fun e h => x1 (ix2 e h)) (fun h => x2 (ix1 h)) (fun h q => x3 (ix2 h q))
          (fun q => x4 (ix1 q)) p l q := by
  rw [out0_5_eq]
  refine View.canon_apply_of_pieces (Val := Elt Ideal) (e := .f32) (blockMlp x0 x1 x2 x3 x4) _ ?_ (ix3 p l q)
    (cover0_5 _ _ _ _ _ _ _ _ _)
  intro pc hpc x
  simp only [List.mem_cons, List.mem_nil_iff, or_false] at hpc
  rcases hpc with rfl | rfl | rfl | rfl | rfl | rfl | rfl | rfl
  · exact piece_ok x0 x1 x2 x3 x4 (acc0 x0 x1) 0 inb_S256x8x128_S256x1x128_0_0_0 (fun p h => (acc0_down x0 x1 p h).trans (down_suffix x0 x1 p h 8 (by decide))) x
  · exact piece_ok x0 x1 x2 x3 x4 (acc1 x0 x1) 1 inb_S256x8x128_S256x1x128_0_1_0 (fun p h => (acc1_down x0 x1 p h).trans (down_suffix x0 x1 p h 7 (by decide))) x
  · exact piece_ok x0 x1 x2 x3 x4 (acc2 x0 x1) 2 inb_S256x8x128_S256x1x128_0_2_0 (fun p h => (acc2_down x0 x1 p h).trans (down_suffix x0 x1 p h 6 (by decide))) x
  · exact piece_ok x0 x1 x2 x3 x4 (acc3 x0 x1) 3 inb_S256x8x128_S256x1x128_0_3_0 (fun p h => (acc3_down x0 x1 p h).trans (down_suffix x0 x1 p h 5 (by decide))) x
  · exact piece_ok x0 x1 x2 x3 x4 (acc4 x0 x1) 4 inb_S256x8x128_S256x1x128_0_4_0 (fun p h => (acc4_down x0 x1 p h).trans (down_suffix x0 x1 p h 4 (by decide))) x
  · exact piece_ok x0 x1 x2 x3 x4 (acc5 x0 x1) 5 inb_S256x8x128_S256x1x128_0_5_0 (fun p h => (acc5_down x0 x1 p h).trans (down_suffix x0 x1 p h 3 (by decide))) x
  · exact piece_ok x0 x1 x2 x3 x4 (acc6 x0 x1) 6 inb_S256x8x128_S256x1x128_0_6_0 (fun p h => (acc6_down x0 x1 p h).trans (down_suffix x0 x1 p h 2 (by decide))) x
  · exact piece_ok x0 x1 x2 x3 x4 (acc7 x0 x1) 7 inb_S256x8x128_S256x1x128_0_7_0 (fun p h => (acc7_down x0 x1 p h).trans (down_suffix x0 x1 p h 1 (by decide))) x

end AtIdeal

end Cert.KernelIdeal.Block

end
-- ==== Proof.KernelValue.lean ====
/-
  The kernel's result array is the tree MLP of its arguments.

  Before the call the host reshapes the input `[16, 256, 8, 128]` to 4096 rows of 1024 features and narrows both weight
  matrices to bf16 (the identity at the ideal values).  The call runs 16 grid points; point `t` is handed rows
  `[256 t, 256 t + 256)` of the flattened input and every weight and bias whole, and writes back rows
  `[256 t, 256 t + 256)` of a `[4096, 8, 128]` array.  By `Cert.KernelIdeal.Block.block_eq` what it writes is the tree MLP of
  its rows, and the tree MLP of a row reads no other row: so every point writes a block of ONE function of the arrays
  (`flushed_eq`); the 16 row tiles cover the array (`final`); the host's last reshape reads row `256 b + p` back as
  `(b, p)` (`result_eq`).
-/
import proofs.«109808_j50285477101584_2_alg».proof.Proof.Gen.KernelIdeal.Frame
import proofs.«109808_j50285477101584_2_alg».proof.Proof.KernelBlock
import proofs.«109808_j50285477101584_2_alg».proof.Proof.Spec
import Idealize.ShloMosaic.Lib.ValueIdx
import Idealize.ShloMosaic.Lib.Pipeline.Value
import Idealize.ShloMosaic.Lib.StableHlo.Run

set_option maxRecDepth 16384

noncomputable section

namespace Cert.KernelIdeal.Final

open Cert.KernelIdeal Cert.KernelIdeal.Gen Cert.KernelIdeal.Block
open Idealize.ShloMosaic Idealize.ShloMosaic.TcCoe Idealize.ShloMosaic.ValueIdx Idealize.SL.Sem Cert.TreeMlp
open Idealize.ShloMosaic.Pipeline (Dat Cfg Window)

variable (m : (ℓ : Loc nD τ sig) → Buf (Elt Ideal) ℓ) (ρ : Dev nD → PrngReg)

/-! ## The arrays as the region finds them -/

/-- The flattened input the region finds is the host's reshape of the input. -/
theorem V_v0 (c : Dev nD) :
    V m c main_v0 = (shapeCast S4096x1024 (m ((c : Thread nD τ).loc main_arg0)) shapeCasts_S16x256x8x128_S4096x1024
      : (⟨S4096x1024, .f32⟩ : BufTy).Contents (Elt Ideal)) := by
  show StableHlo.after hostOps0 (fun b => m (c, b)) (Proc.devRef .tc main_v0) = _
  after_results
  rfl

/-- The first weight matrix the region finds is the host's narrowing of the argument. -/
theorem V_v1 (c : Dev nD) :
    V m c main_v1 = truncf (F := Ideal) .bf16 (m ((c : Thread nD τ).loc main_arg1) : FVec Ideal S1024x4096 .f32)
      bitsLt_bf16_f32 := by
  show StableHlo.after hostOps0 (fun b => m (c, b)) (Proc.devRef .tc main_v1) = _
  after_results

/-- The second weight matrix the region finds is the host's narrowing of the argument. -/
theorem V_v2 (c : Dev nD) :
    V m c main_v2 = truncf (F := Ideal) .bf16 (m ((c : Thread nD τ).loc main_arg3) : FVec Ideal S4096x128 .f32)
      bitsLt_bf16_f32 := by
  show StableHlo.after hostOps0 (fun b => m (c, b)) (Proc.devRef .tc main_v2) = _
  after_results

/-- Row `r`, feature `e` of the flattened input is the input's entry at the same row-major position. -/
theorem V_v0_apply (c : Dev nD) (r : Fin 4096) (e : Fin 1024) :
    V m c main_v0 (ix2 r e) = flat (fun b p j k => m ((c : Thread nD τ).loc main_arg0) (ix4 b p j k)) r e := by
  rw [V_v0]
  have hr := r.isLt
  have he := e.isLt
  unfold flat
  refine shapeCast_apply _ _ _ (ix4 (⟨r.val / 256, by omega⟩ : Fin 16) (⟨r.val % 256, Nat.mod_lt _ (by decide)⟩ : Fin 256)
    (⟨e.val / 128, by omega⟩ : Fin 8) (⟨e.val % 128, Nat.mod_lt _ (by decide)⟩ : Fin 128)) ?_
  rw [Shape.rowMajor_val_four, Shape.rowMajor_val_two]
  show ((r.val / 256 * 256 + r.val % 256) * 8 + e.val / 128) * 128 + e.val % 128 = r.val * 1024 + e.val
  omega

theorem V_v1_apply (c : Dev nD) (i : S1024x4096.Idx) : V m c main_v1 i = m ((c : Thread nD τ).loc main_arg1) i := by
  rw [V_v1]; rfl

theorem V_v2_apply (c : Dev nD) (i : S4096x128.Idx) : V m c main_v2 i = m ((c : Thread nD τ).loc main_arg3) i := by
  rw [V_v2]; rfl

/-! ## Each window's block at a point -/

/-- The printed index maps over the grid: point `t` takes row tile `t` of the flattened input and of the output, and
    every weight and bias whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

theorem t_lt (t : Fin cfg0.N) : t.val < 16 := by
  have h := t.isLt
  have hN : cfg0.N = 16 := N_0
  omega

/-- Point `t`'s rows are rows `256 t + p` of the flattened input. -/
theorem iblk0_apply (c : Dev nD) (t : Fin cfg0.N) (p : Fin 256) (e : Fin 1024) (r : Fin 4096)
    (hr : r.val = 256 * t.val + p.val) :
    iblk m c 0 t (ix2 p e) = V m c main_v0 (ix2 r e) := by
  obtain ⟨e00, e01, -⟩ := idx_facts t
  show V m c main_v0 (((cfg0.win 0).blk t).view.emb (ix2 p e)) = V m c main_v0 (ix2 r e)
  refine congrArg _ (funext fun a => Fin.ext ?_)
  match a with
  | ⟨0, _⟩ => show win0_0.index t (0 : Fin 2) * 256 + 1 * p.val = r.val; omega
  | ⟨1, _⟩ => show win0_0.index t (1 : Fin 2) * 1024 + 1 * e.val = e.val; omega

/-- Every point's first-weight block is the whole matrix. -/
theorem iblk1_apply (c : Dev nD) (t : Fin cfg0.N) (e : Fin 1024) (h : Fin 4096) :
    iblk m c 1 t (ix2 e h) = V m c main_v1 (ix2 e h) := by
  obtain ⟨-, -, e10, e11, -⟩ := idx_facts t
  show V m c main_v1 (((cfg0.win 1).blk t).view.emb (ix2 e h)) = V m c main_v1 (ix2 e h)
  refine congrArg _ (funext fun a => Fin.ext ?_)
  match a with
  | ⟨0, _⟩ => show win0_1.index t (0 : Fin 2) * 1024 + 1 * e.val = e.val; omega
  | ⟨1, _⟩ => show win0_1.index t (1 : Fin 2) * 4096 + 1 * h.val = h.val; omega

/-- Every point's first-bias block is the whole vector. -/
theorem iblk2_apply (c : Dev nD) (t : Fin cfg0.N) (h : Fin 4096) :
    iblk m c 2 t (ix1 h) = V m c main_arg2 (ix1 h) := by
  obtain ⟨-, -, -, -, e20, -⟩ := idx_facts t
  show V m c main_arg2 (((cfg0.win 2).blk t).view.emb (ix1 h)) = V m c main_arg2 (ix1 h)
  refine congrArg _ (funext fun a => Fin.ext ?_)
  match a with
  | ⟨0, _⟩ => show win0_2.index t (0 : Fin 1) * 4096 + 1 * h.val = h.val; omega

/-- Every point's second-weight block is the whole matrix. -/
theorem iblk3_apply (c : Dev nD) (t : Fin cfg0.N) (h : Fin 4096) (q : Fin 128) :
    iblk m c 3 t (ix2 h q) = V m c main_v2 (ix2 h q) := by
  obtain ⟨-, -, -, -, -, e30, e31, -⟩ := idx_facts t
  show V m c main_v2 (((cfg0.win 3).blk t).view.emb (ix2 h q)) = V m c main_v2 (ix2 h q)
  refine congrArg _ (funext fun a => Fin.ext ?_)
  match a with
  | ⟨0, _⟩ => show win0_3.index t (0 : Fin 2) * 4096 + 1 * h.val = h.val; omega
  | ⟨1, _⟩ => show win0_3.index t (1 : Fin 2) * 128 + 1 * q.val = q.val; omega

/-- Every point's second-bias block is the whole vector. -/
theorem iblk4_apply (c : Dev nD) (t : Fin cfg0.N) (q : Fin 128) :
    iblk m c 4 t (ix1 q) = V m c main_arg4 (ix1 q) := by
  obtain ⟨-, -, -, -, -, -, -, e40, -⟩ := idx_facts t
  show V m c main_arg4 (((cfg0.win 4).blk t).view.emb (ix1 q)) = V m c main_arg4 (ix1 q)
  refine congrArg _ (funext fun a => Fin.ext ?_)
  match a with
  | ⟨0, _⟩ => show win0_4.index t (0 : Fin 1) * 128 + 1 * q.val = q.val; omega

/-! ## What every point writes back is a block of one function -/

/-- The tree MLP of the 4096 flattened rows as the region finds the arrays: the `[4096, 8, 128]` array the call leaves. -/
def arrMlp (c : Dev nD) : S4096x8x128.Idx → EReal := fun i =>
  mlp (fun r e => V m c main_v0 (ix2 r e)) (fun e h => V m c main_v1 (ix2 e h)) (fun h => V m c main_arg2 (ix1 h))
    (fun h q => V m c main_v2 (ix2 h q)) (fun q => V m c main_arg4 (ix1 q)) (i 0) (i 1) (i 2)

/-- Entry `(p, l, q)` of what point `t` leaves is entry `(256 t + p, l, q)` of that array: the tree MLP of a row reads
    only that row, which is row `p` of the point's block. -/
theorem flushed_pt (c : Dev nD) (t : Fin cfg0.N) (p : Fin 256) (l : Fin 8) (q : Fin 128) :
    out0_5 (F := Ideal) (iblk m c 0 t) (iblk m c 1 t) (iblk m c 2 t) (iblk m c 3 t) (iblk m c 4 t) (ix3 p l q)
      = arrMlp m c (((cfg0.win 5).blk t).view.emb (ix3 p l q)) := by
  refine (block_eq (iblk m c 0 t) (iblk m c 1 t) (iblk m c 2 t) (iblk m c 3 t) (iblk m c 4 t) p l q).trans ?_
  obtain ⟨-, -, -, -, -, -, -, -, e50, e51, e52⟩ := idx_facts t
  have ht := t_lt t
  have hp := p.isLt
  have hi : ((cfg0.win 5).blk t).view.emb (ix3 p l q) = ix3 (⟨256 * t.val + p.val, by omega⟩ : Fin 4096) l q :=
    funext fun a => Fin.ext (by
      match a with
      | ⟨0, _⟩ => show win0_5.index t (0 : Fin 3) * 256 + 1 * p.val = 256 * t.val + p.val; omega
      | ⟨1, _⟩ => show win0_5.index t (1 : Fin 3) * 8 + 1 * l.val = l.val; omega
      | ⟨2, _⟩ => show win0_5.index t (2 : Fin 3) * 128 + 1 * q.val = q.val; omega)
  rw [hi]
  unfold arrMlp
  exact mlp_congr (r' := (⟨256 * t.val + p.val, by omega⟩ : Fin 4096))
    (funext fun e => iblk0_apply m c t p e _ rfl)
    (funext fun e => funext fun h => iblk1_apply m c t e h)
    (funext fun h => iblk2_apply m c t h)
    (funext fun h => funext fun q => iblk3_apply m c t h q)
    (funext fun q => iblk4_apply m c t q) l q

/-- WHAT POINT `t` WRITES BACK is block `t` of the tree MLP of the arrays as the region finds them. -/
theorem flushed_eq (c : Dev nD) (t : Fin cfg0.N) :
    (dats m 0 c).flushed 5 t = ((cfg0.win 5).blk t).view.read (Elt Ideal) (arrMlp m c) := by
  show (cfg0.win 5).cut (grid0.coords t) ((dats m 0 c).after 5 t) = _
  rw [after0_5]
  funext y
  obtain ⟨p, l, q, rfl⟩ : ∃ (p : Fin 256) (l : Fin 8) (q : Fin 128), y = ix3 p l q := ⟨y 0, y 1, y 2, eq_ix3 y⟩
  exact flushed_pt m c t p l q

/-! ## The row tiles cover the array -/

/-- An index of the array is in point `t`'s block iff each coordinate is in the block's range on its axis. -/
theorem mem_blk (t : Fin cfg0.N) (i : S4096x8x128.Idx) :
    i ∈ ((cfg0.win 5).blk t).view.set ↔ ∀ a : Fin 3, win0_5.index t a * S256x8x128.size a ≤ (i a).val
      ∧ (i a).val < win0_5.index t a * S256x8x128.size a + S256x8x128.size a := by
  show i ∈ ((View.whole main_v3).slice (win0_5.rect t)).set ↔ _
  rw [View.set_slice_whole, Rect.mem_set_unit]
  exact Iff.rfl

/-- THE ARRAY the call leaves: row `r` is in the block of point `r / 256`, so the 16 blocks cover it. -/
theorem final (c : Dev nD) : (dats m 0 c).arrAt 5 cfg0.N = arrMlp m c :=
  (dats m 0 c).arrAt_eq_of_cover 5 (arrMlp m c) (fun t _ => flushed_eq m c t) fun i => by
    have h0 : (i 0).val < 4096 := (i 0).isLt
    have h1 : (i 1).val < 8 := (i 1).isLt
    have h2 : (i 2).val < 128 := (i 2).isLt
    have hN : cfg0.N = 16 := N_0
    refine ⟨⟨(i 0).val / 256, by omega⟩, flush0_5 _, ?_⟩
    rw [mem_blk]
    obtain ⟨-, -, -, -, -, -, -, -, e50, e51, e52⟩ := idx_facts ⟨(i 0).val / 256, by omega⟩
    intro a
    match a with
    | ⟨0, _⟩ =>
      show win0_5.index ⟨(i 0).val / 256, _⟩ (0 : Fin 3) * 256 ≤ (i 0).val
        ∧ (i 0).val < win0_5.index ⟨(i 0).val / 256, _⟩ (0 : Fin 3) * 256 + 256
      simp only at e50
      omega
    | ⟨1, _⟩ =>
      show win0_5.index ⟨(i 0).val / 256, _⟩ (1 : Fin 3) * 8 ≤ (i 1).val
        ∧ (i 1).val < win0_5.index ⟨(i 0).val / 256, _⟩ (1 : Fin 3) * 8 + 8
      omega
    | ⟨2, _⟩ =>
      show win0_5.index ⟨(i 0).val / 256, _⟩ (2 : Fin 3) * 128 ≤ (i 2).val
        ∧ (i 2).val < win0_5.index ⟨(i 0).val / 256, _⟩ (2 : Fin 3) * 128 + 128
      omega

/-! ## The reshape after the call -/

/-- The host's last reshape of the call's array: entry `(b, p, l, q)` is the array's entry at row `256 b + p`, which is
    the tree MLP of the five ARGUMENTS there (the region found the reshaped input and the narrowed weights). -/
theorem reshaped (c : Dev nD) (A : S4096x8x128.Idx → EReal) (hA : A = arrMlp m c) :
    (fun i => shapeCast S16x256x8x128 A shapeCasts_S4096x8x128_S16x256x8x128 i)
      = treeMlpArr (m ((c : Thread nD τ).loc main_arg0)) (m ((c : Thread nD τ).loc main_arg1))
          (m ((c : Thread nD τ).loc main_arg2)) (m ((c : Thread nD τ).loc main_arg3))
          (m ((c : Thread nD τ).loc main_arg4)) := by
  subst hA
  funext i
  obtain ⟨b, p, l, q, rfl⟩ : ∃ (b : Fin 16) (p : Fin 256) (l : Fin 8) (q : Fin 128), i = ix4 b p l q :=
    ⟨i 0, i 1, i 2, i 3, eq_ix4 i⟩
  have hb := b.isLt
  have hp := p.isLt
  rw [shapeCast_apply (arrMlp m c) shapeCasts_S4096x8x128_S16x256x8x128 (ix4 b p l q) (ix3 (rowOf b p) l q) (by
    rw [Shape.rowMajor_val_three, Shape.rowMajor_val_four]
    show ((256 * b.val + p.val) * 8 + l.val) * 128 + q.val = ((b.val * 256 + p.val) * 8 + l.val) * 128 + q.val
    omega)]
  unfold arrMlp treeMlpArr treeMlp
  exact mlp_congr (r := rowOf b p) (r' := rowOf b p)
    (funext fun e => V_v0_apply m c (rowOf b p) e)
    (funext fun e => funext fun h => V_v1_apply m c (ix2 e h))
    (funext fun h => congrFun (V_main_arg2 m c) (ix1 h))
    (funext fun h => funext fun q => V_v2_apply m c (ix2 h q))
    (funext fun q => congrFun (V_main_arg4 m c) (ix1 q)) l q

/-- @main's result after the host's last reshape. -/
theorem tail_eq (c : Dev nD) :
    Pipeline.afterTail₀ cfgs (dats m) 0 (V0 m) [hostOps1] c main_v4
      = treeMlpArr (m ((c : Thread nD τ).loc main_arg0)) (m ((c : Thread nD τ).loc main_arg1))
          (m ((c : Thread nD τ).loc main_arg2)) (m ((c : Thread nD τ).loc main_arg3))
          (m ((c : Thread nD τ).loc main_arg4)) := by
  unfold Pipeline.afterTail₀
  show StableHlo.after hostOps1 _ (Proc.devRef .tc main_v4) = _
  after_results
  exact reshaped m c _ ((Pipeline.withArrays_arr spec0 launch0.win.arr_inj c _ _ 5).trans (final m c))

/-! ## The run, read -/

/-- THE KERNEL'S RUN at the ideal values: every weakly fair execution terminates with the result at the tree MLP of the
    arguments and the arguments unchanged. -/
theorem run : θ_run defs (onTc (τ := τ) (main (F := Ideal))) ⟨m, fun _ => 0, ρ⟩ fun r => ∀ c : Dev nD,
      r.2.mem ((c.tc : Thread nD τ).loc main_v4)
        = treeMlpArr (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c)))⟩)
    (run_main m ρ)

end Cert.KernelIdeal.Final

end
-- ==== Proof.lean ====
/-
  The tree MLP kernel against its jnp reference: `Cert.Claim`.

  For a batch of rows, each a flattened `[8, 128]` embedding, and each of the eight levels `l`, the reference keeps the
  features of the levels `j ≥ l` by a 0/1 mask over all 1024 features and runs a shared two-layer MLP (1024 → 4096 by the
  first weight matrix and bias, a tanh-form GELU, 4096 → 128 by the second).  The kernel tiles the 4096 rows into 16
  blocks of 256 and, per block, builds the first layer's pre-activation as a running sum over the chunks of 128
  features from level 7 down, reading out level `l` right after chunk `l` is added; its matrix products take bf16
  operands.

  At the ideal values a change of float format is the identity, a matrix-unit product into a zero accumulator and the
  host's `dot_general` are the same sum, and the two GELUs are the same expression over the same four constants.  What
  is left is one law of sums on the extended reals, which needs no finiteness: the masked contraction over 1024
  features and the running sum over chunks 7, …, `l` are both the contraction over the levels `j ≥ l`
  (`Cert.TreeMlp.masked_dot`, `Cert.TreeMlp.accDown_eq`).  Both programs' results are stated as ONE function of the five
  argument arrays, `Cert.TreeMlp.treeMlpArr`.

  * The two kernel frames are the generated frame certificates; the reference's frame is its generated run with the
    result dropped.
  * The idealization rewrote nothing, so `preserves` has no conjunct.
  * `algebraic`: the kernel's run (`Cert.KernelIdeal.Final.run`: blocks, cover, the reshapes around the call) and the
    reference's generated run read through `Cert.ReferenceIdeal.RefValue.result_eq`, from memories that agree on the
    arguments.
-/
import proofs.«109808_j50285477101584_2_alg».proof.Defs
import proofs.«109808_j50285477101584_2_alg».proof.Proof.Gen.Kernel
import proofs.«109808_j50285477101584_2_alg».proof.Proof.Gen.Kernel.Frame
import proofs.«109808_j50285477101584_2_alg».proof.Proof.Gen.KernelIdeal
import proofs.«109808_j50285477101584_2_alg».proof.Proof.Gen.KernelIdeal.Frame
import proofs.«109808_j50285477101584_2_alg».proof.Proof.Gen.ReferenceIdeal
import proofs.«109808_j50285477101584_2_alg».proof.Proof.Gen.ReferenceIdeal.Run
import proofs.«109808_j50285477101584_2_alg».proof.Proof.Gen.ReferenceIdeal.Read
import proofs.«109808_j50285477101584_2_alg».proof.Proof.Gen.Pre_finite_inputs
import proofs.«109808_j50285477101584_2_alg».proof.Proof.Spec
import proofs.«109808_j50285477101584_2_alg».proof.Proof.RefSide
import proofs.«109808_j50285477101584_2_alg».proof.Proof.KernelValue
import Idealize.ShloMosaic.Adequacy
import Idealize.ShloMosaic.Init

noncomputable section

namespace Cert.Proof

open Idealize.ShloMosaic Idealize.SL.Sem Cert.TreeMlp

/-- The word-level kernel terminates, faults nowhere and leaves its arguments unchanged: the generated frame. -/
theorem frame_k : Cert.frame_Kernel := fun m ρ _ => Cert.Kernel.Gen.frame m ρ

/-- The same of the idealized kernel. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's ledger is empty. -/
theorem preserves : Cert.preserves_Kernel_KernelIdeal := trivial

/-- Both idealized programs end at the tree MLP of the arguments, which they agree on. -/
theorem algebraic : Cert.algebraic_KernelIdeal_ReferenceIdeal := by
  intro m ρ m' ρ' _ hagree
  refine ⟨fun c => treeMlpArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Final.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v36_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
